-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x2048 : Shape := ⟨3, ![64, 128, 2048]⟩
abbrev S64x2048x1024 : Shape := ⟨3, ![64, 2048, 1024]⟩
abbrev S64x1024x2048 : Shape := ⟨3, ![64, 1024, 2048]⟩
abbrev S_ : Shape := ⟨0, ![]⟩

class Facts : Prop where
  bcast_S_S64x128x2048 : S_.BroadcastsInDim S64x128x2048 (![] : Fin 0 → Fin S64x128x2048.rank)
  reducesTo_S64x128x2048_S_d0_1_2 : S64x128x2048.ReducesTo [0, 1, 2] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn_part1 {F : FTy → Type} [FloatOps F] (main_v13 : IVec S_ 1) (main_v16 : IVec S64x2048x1024 1) : IVec S_ 1 :=
  let main_c_5 : IVec S_ 1 := constantI S_ 1 1#1
  let main_v17 : IVec S_ 1 := (fun x v => Host.reduce IntOp.andi x v reducesTo_S64x2048x1024_S_d0_1_2 h_S_) main_v16 main_c_5
  let main_v18 : IVec S_ 1 := andi main_v13 main_v17
  main_v18

def fn {F : FTy → Type} [FloatOps F] (main_arg0 : FVec F S64x128x2048 .f32) (main_arg1 : FVec F S64x2048x1024 .f32) (main_arg2 : FVec F S64x1024x2048 .f32) (main_arg3 : FVec F S64x2048x1024 .f32) : IVec S_ 1 :=
  let main_v0 : FVec F S64x128x2048 .f32 := Host.absf main_arg0
  let main_cst : FVec F S_ .f32 := constant S_ .f32 0x7F800000#32
  let main_v1 : FVec F S64x128x2048 .f32 := broadcastInDim S64x128x2048 ![] bcast_S_S64x128x2048 main_cst
  let main_v2 : IVec S64x128x2048 1 := cmpf .olt main_v0 main_v1
  let main_c : IVec S_ 1 := constantI S_ 1 1#1
  let main_v3 : IVec S_ 1 := (fun x v => Host.reduce IntOp.andi x v reducesTo_S64x128x2048_S_d0_1_2 h_S_) main_v2 main_c
  let main_v4 : FVec F S64x2048x1024 .f32 := Host.absf main_arg1
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S64x1024x2048 .f32 := Host.absf main_arg2
  let main_cst_2 : FVec F S_ .f32 := constant S_ .f32 0x7F800000#32
  let main_v10 : FVec F S64x1024x2048 .f32 := broadcastInDim S64x1024x2048 ![] bcast_S_S64x1024x2048 main_cst_2
  let main_v11 : IVec S64x1024x2048 1 := cmpf .olt main_v9 main_v10
  let main_c_3 : IVec S_ 1 := constantI S_ 1 1#1
  let main_v12 : IVec S_ 1 := (fun x v => Host.reduce IntOp.andi x v reducesTo_S64x1024x2048_S_d0_1_2 h_S_) main_v11 main_c_3
  let main_v13 : IVec S_ 1 := andi main_v8 main_v12
  let main_v14 : FVec F S64x2048x1024 .f32 := Host.absf main_arg3
  let main_cst_4 : FVec F S_ .f32 := constant S_ .f32 0x7F800000#32
  let main_v15 : FVec F S64x2048x1024 .f32 := broadcastInDim S64x2048x1024 ![] bcast_S_S64x2048x1024 main_cst_4
  let main_v16 : IVec S64x2048x1024 1 := cmpf .olt main_v14 main_v15
  fn_part1 (F := F) main_v13 main_v16
-- ==== Kernel.lean ====
abbrev S64x128x2048 : Shape := ⟨3, ![64, 128, 2048]⟩
abbrev S64x2048x1024 : Shape := ⟨3, ![64, 2048, 1024]⟩
abbrev S64x1024x2048 : Shape := ⟨3, ![64, 1024, 2048]⟩
abbrev S1x128x2048 : Shape := ⟨3, ![1, 128, 2048]⟩
abbrev S1x2048x1024 : Shape := ⟨3, ![1, 2048, 1024]⟩
abbrev S1x1024x2048 : Shape := ⟨3, ![1, 1024, 2048]⟩
abbrev S128x2048 : Shape := ⟨2, ![128, 2048]⟩
abbrev S2048x1024 : Shape := ⟨2, ![2048, 1024]⟩
abbrev S128x1024 : Shape := ⟨2, ![128, 1024]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S64x128x2048, .f32⟩
  | .hbm, ⟨1, _⟩ => ⟨S64x2048x1024, .f32⟩
  | .hbm, ⟨2, _⟩ => ⟨S64x1024x2048, .f32⟩
  | .hbm, ⟨3, _⟩ => ⟨S64x2048x1024, .f32⟩
  | .hbm, ⟨4, _⟩ => ⟨S64x128x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1x2048x1024, .f32⟩
  | .local _ .vmem, ⟨7, _⟩ => ⟨S1x2048x1024, .f32⟩
  | .local _ .vmem, ⟨8, _⟩ => ⟨S1x128x2048, .f32⟩
  | .local _ .vmem, ⟨9, _⟩ => ⟨S1x128x2048, .f32⟩
  | _, _ => ⟨S64x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S128x2048_S1x128x2048 : S128x2048.ShapeCasts S1x128x2048
  dot_S128x2048_S2048x1024_S128x1024_1_0_0_1_n_n_wf : DotDims.WF S128x2048 S2048x1024 S128x1024 [1] [0] [0] [1] [] []
  dot_S128x1024_S1024x2048_S128x2048_1_0_0_1_n_n_wf : DotDims.WF S128x1024 S1024x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x128x2048.size a
  hwx0_0 : ∀ i : grid0.Coords, EltTy.bits .f32 = 32 ∨ (Rect.block (s := S64x128x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S64x2048x1024.size a
  hwx0_1 : ∀ i : grid0.Coords, EltTy.bits .f32 = 32 ∨ (Rect.block (s := S64x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S64x1024x2048.size a
  hwx0_2 : ∀ i : grid0.Coords, EltTy.bits .f32 = 32 ∨ (Rect.block (s := S64x1024x2048) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S64x2048x1024.size a
  hwx0_3 : ∀ i : grid0.Coords, EltTy.bits .f32 = 32 ∨ (Rect.block (s := S64x2048x1024) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S64x128x2048.size a
  hwx0_4 : ∀ i : grid0.Coords, EltTy.bits .f32 = 32 ∨ (Rect.block (s := S64x128x2048) S1x128x2048.size (cc0_transform_4 i) (hinb0_4 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x128x2048 : Shape := ⟨3, ![64, 128, 2048]⟩
abbrev S64x2048x1024 : Shape := ⟨3, ![64, 2048, 1024]⟩
abbrev S64x1024x2048 : Shape := ⟨3, ![64, 1024, 2048]⟩
abbrev S64x128x1024 : Shape := ⟨3, ![64, 128, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S64x128x2048, .f32⟩
  | .hbm, ⟨1, _⟩ => ⟨S64x2048x1024, .f32⟩
  | .hbm, ⟨2, _⟩ => ⟨S64x1024x2048, .f32⟩
  | .hbm, ⟨3, _⟩ => ⟨S64x2048x1024, .f32⟩
  | .hbm, ⟨4, _⟩ => ⟨S64x128x1024, .f32⟩
  | .hbm, ⟨5, _⟩ => ⟨S64x128x1024, .f32⟩
  | .hbm, ⟨6, _⟩ => ⟨S64x128x1024, .f32⟩
  | .hbm, ⟨7, _⟩ => ⟨S_, .f32⟩
  | .hbm, ⟨8, _⟩ => ⟨S64x128x1024, .f32⟩
  | .hbm, ⟨9, _⟩ => ⟨S64x128x1024, .f32⟩
  | .hbm, ⟨10, _⟩ => ⟨S_, .f32⟩
  | .hbm, ⟨11, _⟩ => ⟨S64x128x1024, .f32⟩
  | .hbm, ⟨12, _⟩ => ⟨S64x128x1024, .f32⟩
  | .hbm, ⟨13, _⟩ => ⟨S64x128x1024, .f32⟩
  | .hbm, ⟨14, _⟩ => ⟨S64x128x1024, .f32⟩
  | .hbm, ⟨15, _⟩ => ⟨S64x128x1024, .f32⟩
  | .hbm, ⟨16, _⟩ => ⟨S64x128x2048, .f32⟩
  | _, _ => ⟨S64x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S64x128x1024 : S_.BroadcastsInDim S64x128x1024 (![] : Fin 0 → Fin S64x128x1024.rank)
  dot_S64x128x2048_S64x2048x1024_S64x128x1024_2_1_1_2_0_0_wf : DotDims.WF S64x128x2048 S64x2048x1024 S64x128x1024 [2] [1] [1] [2] [0] [0]
  dot_S64x128x1024_S64x1024x2048_S64x128x2048_2_1_1_2_0_0_wf : DotDims.WF S64x128x1024 S64x1024x2048 S64x128x2048 [2] [1] [1] [2] [0] [0]

variable [Facts₀]

def dot_S64x128x2048_S64x2048x1024_S64x128x1024_2_1_1_2_0_0 : DotDims S64x128x2048 S64x2048x1024 S64x128x1024 where
  lhsContracting := [2]
  rhsContracting := [1]
  lhsNonContracting := [1]
  rhsNonContracting := [2]
  lhsBatch := [0]
  rhsBatch := [0]
  wf := dot_S64x128x2048_S64x2048x1024_S64x128x1024_2_1_1_2_0_0_wf
def dot_S64x128x1024_S64x1024x2048_S64x128x2048_2_1_1_2_0_0 : DotDims S64x128x1024 S64x1024x2048 S64x128x2048 where
  lhsContracting := [2]
  rhsContracting := [1]
  lhsNonContracting := [1]
  rhsNonContracting := [2]
  lhsBatch := [0]
  rhsBatch := [0]
  wf := dot_S64x128x1024_S64x1024x2048_S64x128x2048_2_1_1_2_0_0_wf

class Facts : Prop extends Facts₀ where

variable [Facts]
-- ==== Proof.SwiGLU.lean ====
/-
  The mathematics of the grouped SwiGLU feed-forward layer, as one function of the four argument arrays.

  For each expert `e` (64 of them), each token `t` (128 per expert) and each hidden unit `h` (1024):
    gate(e,t,h) = Σ_k x(e,t,k) · w1(e,k,h)        (k over the 2048 model coordinates)
    up(e,t,h)   = Σ_k x(e,t,k) · w3(e,k,h)
    act(e,t,h)  = gate · logistic(gate) · up        (SiLU of the gate projection times the up projection)
  and for each model coordinate `d` (2048)
    out(e,t,d)  = Σ_h act(e,t,h) · w2(e,h,d).
  Everything is read on the extended reals, with exact sums and products; `logistic a = 1 / (1 + e^(-a))`
  with its limits `0` at `-∞` and `1` at `+∞`. No law of arithmetic is needed between the two programs: both
  compute exactly these sums, in this grouping, so nothing here asks for finiteness of the entries.
-/
import Idealize.ShloMosaic.PureOps.Ideal
import Idealize.ShloMosaic.PureOps.IdealRules
import Idealize.ShloMosaic.Lib.ValueIdx

noncomputable section

namespace SwiGLU

open Idealize.ShloMosaic Idealize.ShloMosaic.ValueIdx

/-- The token array `x` and the result: experts × tokens × model coordinates. -/
abbrev Tokens : Type := (⟨3, ![64, 128, 2048]⟩ : Shape).Idx → EReal
/-- The gate and up weights `w1`, `w3`: experts × model coordinates × hidden units. -/
abbrev UpWeights : Type := (⟨3, ![64, 2048, 1024]⟩ : Shape).Idx → EReal
/-- The down weights `w2`: experts × hidden units × model coordinates. -/
abbrev DownWeights : Type := (⟨3, ![64, 1024, 2048]⟩ : Shape).Idx → EReal

/-- One entry of a projection of the tokens into the hidden space: `Σ_k x(e,t,k) · w(e,k,h)`. -/
def proj (x : Tokens) (w : UpWeights) (e : Fin 64) (t : Fin 128) (h : Fin 1024) : EReal :=
  ∑ k : Fin 2048, x (ix3 e t k) * w (ix3 e k h)

/-- The gated hidden activation: the gate projection times its logistic (SiLU), times the up projection. -/
def act (x : Tokens) (w1 w3 : UpWeights) (e : Fin 64) (t : Fin 128) (h : Fin 1024) : EReal :=
  proj x w1 e t h * Ideal.logistic (proj x w1 e t h) * proj x w3 e t h

/-- The layer's result: the activations projected back by the down weights, `Σ_h act(e,t,h) · w2(e,h,d)`. -/
def ffn (x : Tokens) (w1 : UpWeights) (w2 : DownWeights) (w3 : UpWeights) : Tokens := fun i =>
  ∑ h : Fin 1024, act x w1 w3 (i 0) (i 1) h * w2 (ix3 (i 0) h (i 2))

/-- The result at an index given by its three coordinates. -/
theorem ffn_ix3 (x : Tokens) (w1 : UpWeights) (w2 : DownWeights) (w3 : UpWeights) (e : Fin 64) (t : Fin 128) (d : Fin 2048) :
    ffn x w1 w2 w3 (ix3 e t d) = ∑ h : Fin 1024, act x w1 w3 e t h * w2 (ix3 e h d) := rfl

/-- The single-precision word of `1.0` denotes the real number one. -/
theorem one_word : Ideal.ofBits .f32 0x3F800000#32 = 1 := IdealRules.sign_bit.ideal_onePat .f32

/-- The logistic function spelt out as a quotient — one over one plus the exponential of the negated argument, the
    ones given by their words — is the logistic function, on every extended real. -/
theorem quotient_eq_logistic (a : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf a)))
      = Ideal.logistic a := by
  rw [Ideal.ofBits_def, one_word]; rfl

end SwiGLU

end
-- ==== Proof.KernelBlock.lean ====
/-
  What the kernel body computes at one grid point, entry by entry.

  At a grid point the body holds one expert's blocks: tokens `X` [1,128,2048], gate weights `A` and up weights
  `B` [1,2048,1024], down weights `D` [1,1024,2048]. It drops the leading unit axis of each, multiplies
  `X·A` and `X·B` into zero accumulators, forms `g · logistic(g) · u` entry by entry, multiplies the result by
  `D` into a zero accumulator and puts the unit axis back. A change of float format is the identity on the
  extended reals and a matrix product into a zero accumulator is the plain sum of products over the contracted
  coordinate, so the stored block's entry (0, r, d) is
      Σ_h (g(r,h) · logistic(g(r,h)) · u(r,h)) · D(0,h,d),   g(r,h) = Σ_k X(0,r,k)·A(0,k,h),  u likewise with B.
-/
import proofs.«101036_g70136815943759_cont_9to1_m_186_9_alg».proof.Proof.Gen.KernelIdeal.Skeleton
import proofs.«101036_g70136815943759_cont_9to1_m_186_9_alg».proof.Proof.SwiGLU
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The two matrix products read at an entry

    The operand coordinates of a plain rows × contraction by contraction × columns product: the left operand is read at
    (row, contracted), the right at (contracted, column). -/

theorem up_matmul_lhs_row (j : S128x1024.Idx) (q : dot_S128x2048_S2048x1024_S128x1024_1_0_0_1_n_n.contr.Idx) : (dot_S128x2048_S2048x1024_S128x1024_1_0_0_1_n_n.lhsIdx j q 0).val = (j 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem up_matmul_lhs_contr (j : S128x1024.Idx) (q : dot_S128x2048_S2048x1024_S128x1024_1_0_0_1_n_n.contr.Idx) : (dot_S128x2048_S2048x1024_S128x1024_1_0_0_1_n_n.lhsIdx j q 1).val = (q ⟨0, by decide⟩).val :=
  dot_S128x2048_S2048x1024_S128x1024_1_0_0_1_n_n.lhsIdx_val_of_single rfl j q
theorem up_matmul_rhs_contr (j : S128x1024.Idx) (q : dot_S128x2048_S2048x1024_S128x1024_1_0_0_1_n_n.contr.Idx) : (dot_S128x2048_S2048x1024_S128x1024_1_0_0_1_n_n.rhsIdx j q 0).val = (q ⟨0, by decide⟩).val :=
  dot_S128x2048_S2048x1024_S128x1024_1_0_0_1_n_n.rhsIdx_val_of_single rfl j q
theorem up_matmul_rhs_col (j : S128x1024.Idx) (q : dot_S128x2048_S2048x1024_S128x1024_1_0_0_1_n_n.contr.Idx) : (dot_S128x2048_S2048x1024_S128x1024_1_0_0_1_n_n.rhsIdx j q 1).val = (j 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The product of a [128,2048] matrix with a [2048,1024] matrix into a zero accumulator, read at (r, c): the sum over
    the 2048 contracted coordinates of the products of row `r` with column `c`. -/
theorem up_matmul_apply (l : FVec Ideal S128x2048 .bf16) (w : FVec Ideal S2048x1024 .bf16) (r : Fin 128) (c : Fin 1024) :
    matmul dot_S128x2048_S2048x1024_S128x1024_1_0_0_1_n_n none l w (constant (F := Ideal) S128x1024 .f32 0x00000000#32) (ix2 r c)
      = ∑ k : Fin 2048, l (ix2 r k) * w (ix2 k c) := by
  simp only [matmul]
  rw [Ideal.matmul_constant_zero_apply, ← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 r c) ((contrEquiv1 dot_S128x2048_S2048x1024_S128x1024_1_0_0_1_n_n 2048 rfl rfl).symm k) = ix2 r k := funext fun a => Fin.ext (by
    match a with
    | ⟨0, _⟩ => exact up_matmul_lhs_row _ _
    | ⟨1, _⟩ => exact (up_matmul_lhs_contr _ _).trans hk)
  have er : dot_S128x2048_S2048x1024_S128x1024_1_0_0_1_n_n.rhsIdx (ix2 r c) ((contrEquiv1 dot_S128x2048_S2048x1024_S128x1024_1_0_0_1_n_n 2048 rfl rfl).symm k) = ix2 k c := funext fun a => Fin.ext (by
    match a with
    | ⟨0, _⟩ => exact (up_matmul_rhs_contr _ _).trans hk
    | ⟨1, _⟩ => exact up_matmul_rhs_col _ _)
  rw [el, er]

theorem down_matmul_lhs_row (j : S128x2048.Idx) (q : dot_S128x1024_S1024x2048_S128x2048_1_0_0_1_n_n.contr.Idx) : (dot_S128x1024_S1024x2048_S128x2048_1_0_0_1_n_n.lhsIdx j q 0).val = (j 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem down_matmul_lhs_contr (j : S128x2048.Idx) (q : dot_S128x1024_S1024x2048_S128x2048_1_0_0_1_n_n.contr.Idx) : (dot_S128x1024_S1024x2048_S128x2048_1_0_0_1_n_n.lhsIdx j q 1).val = (q ⟨0, by decide⟩).val :=
  dot_S128x1024_S1024x2048_S128x2048_1_0_0_1_n_n.lhsIdx_val_of_single rfl j q
theorem down_matmul_rhs_contr (j : S128x2048.Idx) (q : dot_S128x1024_S1024x2048_S128x2048_1_0_0_1_n_n.contr.Idx) : (dot_S128x1024_S1024x2048_S128x2048_1_0_0_1_n_n.rhsIdx j q 0).val = (q ⟨0, by decide⟩).val :=
  dot_S128x1024_S1024x2048_S128x2048_1_0_0_1_n_n.rhsIdx_val_of_single rfl j q
theorem down_matmul_rhs_col (j : S128x2048.Idx) (q : dot_S128x1024_S1024x2048_S128x2048_1_0_0_1_n_n.contr.Idx) : (dot_S128x1024_S1024x2048_S128x2048_1_0_0_1_n_n.rhsIdx j q 1).val = (j 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- The product of a [128,1024] matrix with a [1024,2048] matrix into a zero accumulator, read at (r, c): the sum over
    the 1024 contracted coordinates. -/
theorem down_matmul_apply (l : FVec Ideal S128x1024 .bf16) (w : FVec Ideal S1024x2048 .bf16) (r : Fin 128) (c : Fin 2048) :
    matmul dot_S128x1024_S1024x2048_S128x2048_1_0_0_1_n_n none l w (constant (F := Ideal) S128x2048 .f32 0x00000000#32) (ix2 r c)
      = ∑ k : Fin 1024, l (ix2 r k) * w (ix2 k c) := by
  simp only [matmul]
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 r c) ((contrEquiv1 dot_S128x1024_S1024x2048_S128x2048_1_0_0_1_n_n 1024 rfl rfl).symm k) = ix2 r k := funext fun a => Fin.ext (by
    match a with
    | ⟨0, _⟩ => exact down_matmul_lhs_row _ _
    | ⟨1, _⟩ => exact (down_matmul_lhs_contr _ _).trans hk)
  have er : dot_S128x1024_S1024x2048_S128x2048_1_0_0_1_n_n.rhsIdx (ix2 r c) ((contrEquiv1 dot_S128x1024_S1024x2048_S128x2048_1_0_0_1_n_n 1024 rfl rfl).symm k) = ix2 k c := funext fun a => Fin.ext (by
    match a with
    | ⟨0, _⟩ => exact (down_matmul_rhs_contr _ _).trans hk
    | ⟨1, _⟩ => exact down_matmul_rhs_col _ _)
  rw [el, er]

/-! ## The stored block -/

/-- One entry of a projection of the token block `X` by a weight block `W`, over the blocks' own coordinates. -/
def blockProj (X : Vec Ideal S1x128x2048 .f32) (W : Vec Ideal S1x2048x1024 .f32) (r : Fin 128) (h : Fin 1024) : EReal :=
  ∑ k : Fin 2048, X (ix3 (0 : Fin 1) r k) * W (ix3 (0 : Fin 1) k h)

/-- A projection as the body forms it — the unit axis dropped from both blocks, the formats changed, the product taken into
    a zero accumulator — read at (r, h): the sum over the 2048 model coordinates. -/
theorem proj_matmul_apply (X : Vec Ideal S1x128x2048 .f32) (W : Vec Ideal S1x2048x1024 .f32) (r : Fin 128) (h : Fin 1024) :
    matmul dot_S128x2048_S2048x1024_S128x1024_1_0_0_1_n_n none
        (truncf .bf16 (shapeCast S128x2048 X shapeCasts_S1x128x2048_S128x2048) bitsLt_bf16_f32)
        (truncf .bf16 (shapeCast S2048x1024 W shapeCasts_S1x2048x1024_S2048x1024) bitsLt_bf16_f32)
        (constant (F := Ideal) S128x1024 .f32 0x00000000#32) (ix2 r h)
      = blockProj X W r h := by
  rw [up_matmul_apply]
  refine Finset.sum_congr rfl fun k _ => ?_
  rw [truncf_apply, truncf_apply, shapeCast_1ab_ab_apply, shapeCast_1ab_ab_apply]

/-- THE BODY'S STORED BLOCK, entry (u, r, d): the gated activations of row `r` against column `d` of the down block. -/
theorem payload_apply (X : Vec Ideal S1x128x2048 .f32) (A B : Vec Ideal S1x2048x1024 .f32) (D : Vec Ideal S1x1024x2048 .f32)
    (u : Fin 1) (r : Fin 128) (d : Fin 2048) :
    k0_pay1 X A B D (ix3 u r d)
      = ∑ h : Fin 1024, (blockProj X A r h * Ideal.logistic (blockProj X A r h) * blockProj X B r h) * D (ix3 (0 : Fin 1) h d) := by
  unfold k0_pay1
  rw [shapeCast_ab_1ab_apply, down_matmul_apply]
  refine Finset.sum_congr rfl fun h _ => ?_
  rw [truncf_apply, truncf_apply, shapeCast_1ab_ab_apply, mulf_apply, mulf_apply]
  unfold logistic
  rw [proj_matmul_apply, proj_matmul_apply]
  rfl

/-- THE STORED BLOCK IS A BLOCK OF THE LAYER'S RESULT. If the four blocks the body loads are expert `e`'s slices of the
    arrays `x`, `w1`, `w3`, `w2`, the stored block's entry (u, r, d) is the layer's result at (e, r, d): the blocks' sums
    are the arrays' sums within expert `e`, term by term. -/
theorem payload_eq_ffn (x : SwiGLU.Tokens) (w1 : SwiGLU.UpWeights) (w2 : SwiGLU.DownWeights) (w3 : SwiGLU.UpWeights)
    (X : Vec Ideal S1x128x2048 .f32) (A B : Vec Ideal S1x2048x1024 .f32) (D : Vec Ideal S1x1024x2048 .f32) (e : Fin 64)
    (hX : ∀ (r : Fin 128) (k : Fin 2048), X (ix3 (0 : Fin 1) r k) = x (ix3 e r k))
    (hA : ∀ (k : Fin 2048) (h : Fin 1024), A (ix3 (0 : Fin 1) k h) = w1 (ix3 e k h))
    (hB : ∀ (k : Fin 2048) (h : Fin 1024), B (ix3 (0 : Fin 1) k h) = w3 (ix3 e k h))
    (hD : ∀ (h : Fin 1024) (d : Fin 2048), D (ix3 (0 : Fin 1) h d) = w2 (ix3 e h d))
    (u : Fin 1) (r : Fin 128) (d : Fin 2048) :
    k0_pay1 X A B D (ix3 u r d) = SwiGLU.ffn x w1 w2 w3 (ix3 e r d) := by
  have gate : ∀ h : Fin 1024, blockProj X A r h = SwiGLU.proj x w1 e r h := fun h =>
    Finset.sum_congr rfl fun k _ => by rw [hX, hA]
  have up : ∀ h : Fin 1024, blockProj X B r h = SwiGLU.proj x w3 e r h := fun h =>
    Finset.sum_congr rfl fun k _ => by rw [hX, hB]
  rw [payload_apply, SwiGLU.ffn_ix3]
  refine Finset.sum_congr rfl fun h _ => ?_
  rw [gate, up, hD]
  rfl

end Cert.KernelIdeal.Block

end
-- ==== Proof.KernelArray.lean ====
/-
  From the kernel's blocks to its whole result array.

  The grid has one point per expert. At point `t` every window's block index is (t, 0, 0): the token, weight and
  result blocks are expert `t`'s slices of their arrays, whole along the two trailing axes. So what point `t` writes
  back is the block at expert `t` of the layer's function of the argument arrays, the 64 blocks cover the result array
  (index (e, r, d) lies in point `e`'s block), and after the run the array is that function.
-/
import proofs.«101036_g70136815943759_cont_9to1_m_186_9_alg».proof.Proof.Gen.KernelIdeal.Value
import proofs.«101036_g70136815943759_cont_9to1_m_186_9_alg».proof.Proof.KernelBlock
import Idealize.ShloMosaic.Lib.Pipeline.Value
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their blocks. -/
theorem origin : (![0, 0, 0] : Fin 3 → Nat) = fun _ => 0 := funext fun a => by fin_cases a <;> rfl

/-- The grid's 64 points. -/
theorem points : cfg0.N = 64 := N_0

/-- The expert a grid point works on. -/
def expert (t : Fin cfg0.N) : Fin 64 := t.cast points

/-- The printed index maps, decided over the grid: at point `t` every window's block index is (t, 0, 0). -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The token block at point `t` is expert `t`'s slice of the token array. -/
theorem tokens_block (c : Dev nD) (t : Fin cfg0.N) (r : Fin 128) (k : Fin 2048) :
    (iblk m c 0 t : Vec Ideal S1x128x2048 .f32) (ix3 (0 : Fin 1) r k)
      = (V m c main_arg0 : S64x128x2048.Idx → EReal) (ix3 (expert t) r k) := by
  obtain ⟨⟨e0, e1, e2⟩, -⟩ := index_facts t
  unfold iblk
  show V m c main_arg0 (((cfg0.win 0).blk t).view.emb (ix3 (0 : Fin 1) r k)) = V m c main_arg0 (ix3 (expert t) r k)
  refine congrArg _ (funext fun a => Fin.ext ?_)
  match a with
  | ⟨0, _⟩ => show win0_0.index t (0 : Fin 3) * 1 + 1 * ((0 : Fin 1) : ℕ) = t.val; rw [e0]; simp
  | ⟨1, _⟩ => show win0_0.index t (1 : Fin 3) * 128 + 1 * r.val = r.val; rw [e1]; omega
  | ⟨2, _⟩ => show win0_0.index t (2 : Fin 3) * 2048 + 1 * k.val = k.val; rw [e2]; omega

/-- The gate weight block at point `t` is expert `t`'s slice of `w1`. -/
theorem gate_block (c : Dev nD) (t : Fin cfg0.N) (k : Fin 2048) (h : Fin 1024) :
    (iblk m c 1 t : Vec Ideal S1x2048x1024 .f32) (ix3 (0 : Fin 1) k h)
      = (V m c main_arg1 : S64x2048x1024.Idx → EReal) (ix3 (expert t) k h) := by
  obtain ⟨-, ⟨e0, e1, e2⟩, -⟩ := index_facts t
  unfold iblk
  show V m c main_arg1 (((cfg0.win 1).blk t).view.emb (ix3 (0 : Fin 1) k h)) = V m c main_arg1 (ix3 (expert t) k h)
  refine congrArg _ (funext fun a => Fin.ext ?_)
  match a with
  | ⟨0, _⟩ => show win0_1.index t (0 : Fin 3) * 1 + 1 * ((0 : Fin 1) : ℕ) = t.val; rw [e0]; simp
  | ⟨1, _⟩ => show win0_1.index t (1 : Fin 3) * 2048 + 1 * k.val = k.val; rw [e1]; omega
  | ⟨2, _⟩ => show win0_1.index t (2 : Fin 3) * 1024 + 1 * h.val = h.val; rw [e2]; omega

/-- The down weight block at point `t` is expert `t`'s slice of `w2`. -/
theorem down_block (c : Dev nD) (t : Fin cfg0.N) (h : Fin 1024) (d : Fin 2048) :
    (iblk m c 2 t : Vec Ideal S1x1024x2048 .f32) (ix3 (0 : Fin 1) h d)
      = (V m c main_arg2 : S64x1024x2048.Idx → EReal) (ix3 (expert t) h d) := by
  obtain ⟨-, -, ⟨e0, e1, e2⟩, -⟩ := index_facts t
  unfold iblk
  show V m c main_arg2 (((cfg0.win 2).blk t).view.emb (ix3 (0 : Fin 1) h d)) = V m c main_arg2 (ix3 (expert t) h d)
  refine congrArg _ (funext fun a => Fin.ext ?_)
  match a with
  | ⟨0, _⟩ => show win0_2.index t (0 : Fin 3) * 1 + 1 * ((0 : Fin 1) : ℕ) = t.val; rw [e0]; simp
  | ⟨1, _⟩ => show win0_2.index t (1 : Fin 3) * 1024 + 1 * h.val = h.val; rw [e1]; omega
  | ⟨2, _⟩ => show win0_2.index t (2 : Fin 3) * 2048 + 1 * d.val = d.val; rw [e2]; omega

/-- The up weight block at point `t` is expert `t`'s slice of `w3`. -/
theorem up_block (c : Dev nD) (t : Fin cfg0.N) (k : Fin 2048) (h : Fin 1024) :
    (iblk m c 3 t : Vec Ideal S1x2048x1024 .f32) (ix3 (0 : Fin 1) k h)
      = (V m c main_arg3 : S64x2048x1024.Idx → EReal) (ix3 (expert t) k h) := by
  obtain ⟨-, -, -, ⟨e0, e1, e2⟩, -⟩ := index_facts t
  unfold iblk
  show V m c main_arg3 (((cfg0.win 3).blk t).view.emb (ix3 (0 : Fin 1) k h)) = V m c main_arg3 (ix3 (expert t) k h)
  refine congrArg _ (funext fun a => Fin.ext ?_)
  match a with
  | ⟨0, _⟩ => show win0_3.index t (0 : Fin 3) * 1 + 1 * ((0 : Fin 1) : ℕ) = t.val; rw [e0]; simp
  | ⟨1, _⟩ => show win0_3.index t (1 : Fin 3) * 2048 + 1 * k.val = k.val; rw [e1]; omega
  | ⟨2, _⟩ => show win0_3.index t (2 : Fin 3) * 1024 + 1 * h.val = h.val; rw [e2]; omega

/-- The layer's function of the argument arrays as the region finds them. -/
abbrev result (c : Dev nD) : Buf (Elt Ideal) ((c : Thread nD τ).loc main_v0) :=
  SwiGLU.ffn (V m c main_arg0) (V m c main_arg1) (V m c main_arg2) (V m c main_arg3)

/-- WHAT POINT `t` WRITES BACK is expert `t`'s block of the layer's result. -/
theorem flushed_eq (c : Dev nD) (t : Fin cfg0.N) :
    (dats m 0 c).flushed 4 t = ((cfg0.win 4).blk t).view.read (Elt Ideal) (result m c) := by
  rw [flushed4]
  unfold out0_4
  rw [View.canon_unit_zero origin]
  simp only [View.ld_unit_zero (S := S1x128x2048) origin, View.ld_unit_zero (S := S1x2048x1024) origin, View.ld_unit_zero (S := S1x1024x2048) origin]
  obtain ⟨-, -, -, -, e0, e1, e2⟩ := index_facts t
  funext j
  obtain ⟨u, r, d, rfl⟩ : ∃ (u : Fin 1) (r : Fin 128) (d : Fin 2048), j = ix3 u r d := ⟨j 0, j 1, j 2, eq_ix3 j⟩
  show k0_pay1 (iblk m c 0 t) (iblk m c 1 t) (iblk m c 3 t) (iblk m c 2 t) (ix3 u r d)
    = result m c (((cfg0.win 4).blk t).view.emb (ix3 u r d))
  have hi : ((cfg0.win 4).blk t).view.emb (ix3 u r d) = ix3 (expert t) r d := funext fun a => Fin.ext (by
    match a with
    | ⟨0, _⟩ => show win0_4.index t (0 : Fin 3) * 1 + 1 * u.val = t.val; rw [e0]; omega
    | ⟨1, _⟩ => show win0_4.index t (1 : Fin 3) * 128 + 1 * r.val = r.val; rw [e1]; omega
    | ⟨2, _⟩ => show win0_4.index t (2 : Fin 3) * 2048 + 1 * d.val = d.val; rw [e2]; omega)
  rw [hi]
  exact Block.payload_eq_ffn (V m c main_arg0) (V m c main_arg1) (V m c main_arg2) (V m c main_arg3)
    (iblk m c 0 t) (iblk m c 1 t) (iblk m c 3 t) (iblk m c 2 t) (expert t)
    (tokens_block m c t) (gate_block m c t) (up_block m c t) (down_block m c t) u r d

/-- An index of the result array is in point `t`'s block iff each coordinate is in the block's range on its axis. -/
theorem mem_block (t : Fin cfg0.N) (i : S64x128x2048.Idx) :
    i ∈ ((cfg0.win 4).blk t).view.set ↔ ∀ a : Fin 3, win0_4.index t a * S1x128x2048.size a ≤ (i a).val ∧ (i a).val < win0_4.index t a * S1x128x2048.size a + S1x128x2048.size a := by
  show i ∈ ((View.whole main_v0).slice (win0_4.rect t)).set ↔ _
  rw [View.set_slice_whole, Rect.mem_set_unit]
  exact Iff.rfl

/-- THE COVER: index (e, r, d) lies in the block of the point that works on expert `e`. -/
theorem cover (i : S64x128x2048.Idx) : ∃ t : Fin cfg0.N, (cfg0.win 4).flush t = true ∧ i ∈ ((cfg0.win 4).blk t).view.set := by
  have h0 : (i 0).val < 64 := (i 0).isLt
  have h1 : (i 1).val < 128 := (i 1).isLt
  have h2 : (i 2).val < 2048 := (i 2).isLt
  have hN : cfg0.N = 64 := points
  have hlt : (i 0).val < cfg0.N := by omega
  refine ⟨⟨(i 0).val, hlt⟩, flush0_4 _, ?_⟩
  obtain ⟨-, -, -, -, e0, e1, e2⟩ := index_facts ⟨(i 0).val, hlt⟩
  replace e0 : win0_4.index ⟨(i 0).val, hlt⟩ (0 : Fin 3) = (i 0).val := e0
  rw [mem_block]
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [e0]; omega
  | ⟨1, _⟩ =>
    show win0_4.index ⟨(i 0).val, _⟩ (1 : Fin 3) * 128 ≤ (i 1).val ∧ (i 1).val < win0_4.index ⟨(i 0).val, _⟩ (1 : Fin 3) * 128 + 128
    rw [e1]; omega
  | ⟨2, _⟩ =>
    show win0_4.index ⟨(i 0).val, _⟩ (2 : Fin 3) * 2048 ≤ (i 2).val ∧ (i 2).val < win0_4.index ⟨(i 0).val, _⟩ (2 : Fin 3) * 2048 + 2048
    rw [e2]; omega

/-- THE RESULT ARRAY after the run is the layer's function of the argument arrays. -/
theorem final (c : Dev nD) : (dats m 0 c).arrAt 4 cfg0.N = result m c :=
  (dats m 0 c).arrAt_eq_of_cover 4 (result m c) (fun t _ => flushed_eq m c t) cover

/-- The run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v0) = SwiGLU.ffn (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.ReferenceValue.lean ====
/-
  The reference program's result is the layer's function `SwiGLU.ffn` of its four arguments.

  The reference computes the gate projection as one batched product over the experts, spells the logistic function
  as the quotient `1 / (1 + e^(-g))`, multiplies gate, logistic and up projection entry by entry, and projects back
  by a second batched product. A batched product read at (e, t, ·) contracts over the shared coordinate within expert
  `e` only, so each stage read at an index is the corresponding sum of `SwiGLU`, and the quotient is the logistic
  function on every extended real.
-/
import proofs.«101036_g70136815943759_cont_9to1_m_186_9_alg».proof.Proof.Gen.ReferenceIdeal.Read
import proofs.«101036_g70136815943759_cont_9to1_m_186_9_alg».proof.Proof.SwiGLU
import Idealize.ShloMosaic.Lib.ValueIdx

noncomputable section

namespace Cert.ReferenceIdeal.RefValue

open Cert.ReferenceIdeal Cert.ReferenceIdeal.Read Idealize.ShloMosaic Idealize.ShloMosaic.ValueIdx

/-- The gate projection stage at (e, t, h): the sum over the model coordinates within expert `e`. -/
theorem gate_apply (x : (⟨S64x128x2048, .f32⟩ : BufTy).Contents (Elt Ideal)) (w : (⟨S64x2048x1024, .f32⟩ : BufTy).Contents (Elt Ideal))
    (e : Fin 64) (t : Fin 128) (h : Fin 1024) :
    val_main_v0 (F := Ideal) x w (ix3 e t h) = SwiGLU.proj x w e t h := by
  rw [val_main_v0_apply]
  refine Finset.sum_congr rfl fun k _ => ?_
  have el : lidx_main_v0 (ix3 e t h) k = ix3 e t k := funext fun a => Fin.ext (by
    match a with | ⟨0, _⟩ => rfl | ⟨1, _⟩ => rfl | ⟨2, _⟩ => rfl)
  have er : ridx_main_v0 (ix3 e t h) k = ix3 e k h := funext fun a => Fin.ext (by
    match a with | ⟨0, _⟩ => rfl | ⟨1, _⟩ => rfl | ⟨2, _⟩ => rfl)
  rw [el, er]

/-- The up projection stage at (e, t, h): the same sum with the up weights. -/
theorem up_apply (x : (⟨S64x128x2048, .f32⟩ : BufTy).Contents (Elt Ideal)) (w : (⟨S64x2048x1024, .f32⟩ : BufTy).Contents (Elt Ideal))
    (e : Fin 64) (t : Fin 128) (h : Fin 1024) :
    val_main_v2 (F := Ideal) x w (ix3 e t h) = SwiGLU.proj x w e t h := by
  rw [val_main_v2_apply]
  refine Finset.sum_congr rfl fun k _ => ?_
  have el : lidx_main_v2 (ix3 e t h) k = ix3 e t k := funext fun a => Fin.ext (by
    match a with | ⟨0, _⟩ => rfl | ⟨1, _⟩ => rfl | ⟨2, _⟩ => rfl)
  have er : ridx_main_v2 (ix3 e t h) k = ix3 e k h := funext fun a => Fin.ext (by
    match a with | ⟨0, _⟩ => rfl | ⟨1, _⟩ => rfl | ⟨2, _⟩ => rfl)
  rw [el, er]

/-- The gated activation stage at (e, t, h): gate times the logistic of the gate, times up. -/
theorem act_apply (x : (⟨S64x128x2048, .f32⟩ : BufTy).Contents (Elt Ideal)) (w1 w3 : (⟨S64x2048x1024, .f32⟩ : BufTy).Contents (Elt Ideal))
    (e : Fin 64) (t : Fin 128) (h : Fin 1024) :
    val_main_v3 (F := Ideal) x w1 w3 (ix3 e t h) = SwiGLU.act x w1 w3 e t h := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, up_apply, gate_apply, SwiGLU.quotient_eq_logistic]
  rfl

/-- THE REFERENCE'S RESULT is the layer's function of the arguments. -/
theorem result_eq (x : (⟨S64x128x2048, .f32⟩ : BufTy).Contents (Elt Ideal)) (w1 : (⟨S64x2048x1024, .f32⟩ : BufTy).Contents (Elt Ideal))
    (w2 : (⟨S64x1024x2048, .f32⟩ : BufTy).Contents (Elt Ideal)) (w3 : (⟨S64x2048x1024, .f32⟩ : BufTy).Contents (Elt Ideal)) :
    val_main_v4 (F := Ideal) x w1 w2 w3 = SwiGLU.ffn x w1 w2 w3 := by
  funext i
  obtain ⟨e, t, d, rfl⟩ : ∃ (e : Fin 64) (t : Fin 128) (d : Fin 2048), i = ix3 e t d := ⟨i 0, i 1, i 2, eq_ix3 i⟩
  rw [val_main_v4_apply, SwiGLU.ffn_ix3]
  refine Finset.sum_congr rfl fun h _ => ?_
  have el : lidx_main_v4 (ix3 e t d) h = ix3 e t h := funext fun a => Fin.ext (by
    match a with | ⟨0, _⟩ => rfl | ⟨1, _⟩ => rfl | ⟨2, _⟩ => rfl)
  have er : ridx_main_v4 (ix3 e t d) h = ix3 e h d := funext fun a => Fin.ext (by
    match a with | ⟨0, _⟩ => rfl | ⟨1, _⟩ => rfl | ⟨2, _⟩ => rfl)
  rw [el, er, act_apply]

end Cert.ReferenceIdeal.RefValue

end
-- ==== Proof.lean ====
/-
  The grouped SwiGLU feed-forward kernel against its einsum reference, on the extended reals.

  Both programs compute, for every expert e, token t and model coordinate d,
      out(e,t,d) = Σ_h (g · logistic(g) · u)(e,t,h) · w2(e,h,d),
      g(e,t,h) = Σ_k x(e,t,k) · w1(e,k,h),   u(e,t,h) = Σ_k x(e,t,k) · w3(e,k,h)
  (`SwiGLU.ffn`). The kernel does it one expert per grid point, with plain matrix products into zero accumulators
  and the logistic function as one operation; the reference with batched products over all experts and the logistic
  function spelt `1 / (1 + e^(-g))`. On the extended reals a change of float format is the identity, both kinds of
  product are the same sums of products, and the quotient is the logistic function everywhere, so the two results are
  one function of the arguments: the same sums in the same grouping. No entry needs to be finite for that.

  The three frames are the generated ones (the reference's is its generated run with the result dropped); the kernel's
  idealization rewrote nothing, so there is nothing to preserve; the value claim sets the kernel's run
  (`Cert.KernelIdeal.Whole.run`) beside the reference's (`Cert.ReferenceIdeal.RefValue.result_eq`).
-/
import proofs.«101036_g70136815943759_cont_9to1_m_186_9_alg».proof.Defs
import proofs.«101036_g70136815943759_cont_9to1_m_186_9_alg».proof.Proof.Gen.Kernel
import proofs.«101036_g70136815943759_cont_9to1_m_186_9_alg».proof.Proof.Gen.Kernel.Skeleton
import proofs.«101036_g70136815943759_cont_9to1_m_186_9_alg».proof.Proof.Gen.Kernel.Launch
import proofs.«101036_g70136815943759_cont_9to1_m_186_9_alg».proof.Proof.Gen.Kernel.Points
import proofs.«101036_g70136815943759_cont_9to1_m_186_9_alg».proof.Proof.Gen.Kernel.Frame
import proofs.«101036_g70136815943759_cont_9to1_m_186_9_alg».proof.Proof.Gen.KernelIdeal
import proofs.«101036_g70136815943759_cont_9to1_m_186_9_alg».proof.Proof.Gen.KernelIdeal.Skeleton
import proofs.«101036_g70136815943759_cont_9to1_m_186_9_alg».proof.Proof.Gen.KernelIdeal.Launch
import proofs.«101036_g70136815943759_cont_9to1_m_186_9_alg».proof.Proof.Gen.KernelIdeal.Points
import proofs.«101036_g70136815943759_cont_9to1_m_186_9_alg».proof.Proof.Gen.KernelIdeal.Frame
import proofs.«101036_g70136815943759_cont_9to1_m_186_9_alg».proof.Proof.Gen.ReferenceIdeal
import proofs.«101036_g70136815943759_cont_9to1_m_186_9_alg».proof.Proof.Gen.Pre_finite_inputs
import proofs.«101036_g70136815943759_cont_9to1_m_186_9_alg».proof.Proof.Gen.KernelIdeal.Value
import proofs.«101036_g70136815943759_cont_9to1_m_186_9_alg».proof.Proof.Gen.ReferenceIdeal.Run
import proofs.«101036_g70136815943759_cont_9to1_m_186_9_alg».proof.Proof.Gen.ReferenceIdeal.Read
import proofs.«101036_g70136815943759_cont_9to1_m_186_9_alg».proof.Proof.SwiGLU
import proofs.«101036_g70136815943759_cont_9to1_m_186_9_alg».proof.Proof.KernelBlock
import proofs.«101036_g70136815943759_cont_9to1_m_186_9_alg».proof.Proof.KernelArray
import proofs.«101036_g70136815943759_cont_9to1_m_186_9_alg».proof.Proof.ReferenceValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the four arguments, the kernel's result array and the reference's both end at the
    layer's function `SwiGLU.ffn` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
